-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S32768x1024 : Shape := ⟨2, ![32768, 1024]⟩
abbrev S2x1x1 : Shape := ⟨3, ![2, 1, 1]⟩
abbrev S1024x1024 : Shape := ⟨2, ![1024, 1024]⟩
abbrev S1x1x1 : Shape := ⟨3, ![1, 1, 1]⟩
abbrev S1024x1 : Shape := ⟨2, ![1024, 1]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S32768x1024, .f32⟩
  | .hbm, ⟨3, _⟩ => ⟨S32768x1024, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1, .f32⟩
  | .local _ .vmem, ⟨5, _⟩ => ⟨S1x1x1, .f32⟩
  | .local _ .vmem, ⟨6, _⟩ => ⟨S1024x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S32768x1024 : S33554432.ShapeCasts S32768x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .i1⟩
  | .hbm, ⟨8, _⟩ => ⟨S_, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S33554432, .i1⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Pieces.lean ====
/-
  What one call of the kernel body leaves behind, as values.

  The body keeps a column of 1024 running row sums in a scratch buffer. At the first of a core's sixteen points it
  zeroes the column, at every point it adds the point's row sums to it, and at the last of the sixteen it sums the
  column down to the one number it stores in the output block. Each of these is one whole-buffer store, so what a
  buffer holds afterwards is the stored value: the column after a point is the row-sum update of the column before
  it (of the zero column at a first point), and the output block at a last point is the column sum of that update.
-/
import proofs.«126340_j12910671691833_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the column becomes the row-sum update of the column the point before left. -/
theorem column_B (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x1 .f32) (h4 : a4.IsWhole)
    (a5 : Memref sig .tc .vmem S1024x1 .f32) (h5 : a5.IsWhole) (hc0 : ¬cond0_0 i) (hc1 : ¬cond0_1 i)
    (x0 x1 : Vec F S1024x1024 .f32) (xs : Vec F S1024x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz2]
  simp only [View.readAt_eq_ld, h2.read_unread, h3.read_unread, h5.read_unread,
    View.ld_unit_zero (S := S1024x1024) hz2, View.ld_unit_zero (S := S1024x1) hz2]

/-- A last point: the column becomes the row-sum update of the column the point before left, -/
theorem column_C (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x1 .f32) (h4 : a4.IsWhole)
    (a5 : Memref sig .tc .vmem S1024x1 .f32) (h5 : a5.IsWhole) (hc0 : ¬cond0_0 i) (hc1 : cond0_1 i)
    (x0 x1 : Vec F S1024x1024 .f32) (xs : Vec F S1024x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread,
    View.ld_unit_zero (S := S1024x1024) hz2, View.ld_unit_zero (S := S1024x1) hz2]

/-- and the output block is the column sum of that updated column. -/
theorem block_C (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x1 .f32) (h4 : a4.IsWhole)
    (a5 : Memref sig .tc .vmem S1024x1 .f32) (h5 : a5.IsWhole) (hc0 : ¬cond0_0 i) (hc1 : cond0_1 i)
    (x0 x1 : Vec F S1024x1024 .f32) (xs : Vec F S1024x1 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3, View.readCov_unit_zero (S := S1024x1) _ hz2]
  simp only [View.readAt_eq_ld, h2.read_unread, h3.read_unread, h5.read_unread,
    View.ld_unit_zero (S := S1024x1024) hz2, View.ld_unit_zero (S := S1024x1) hz2]

/-- A first point: the column becomes the row-sum update of the zero column. -/
theorem column_A (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x1 .f32) (h4 : a4.IsWhole)
    (a5 : Memref sig .tc .vmem S1024x1 .f32) (h5 : a5.IsWhole) (hc0 : cond0_0 i) (hc1 : ¬cond0_1 i)
    (x0 x1 : Vec F S1024x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1) hz2, View.readCov_unit_zero (S := S1024x1) _ hz2]
  simp only [View.readAt_eq_ld, h2.read_unread, h3.read_unread,
    View.ld_unit_zero (S := S1024x1024) hz2]

end Cert.KernelIdeal.Pieces

end
-- ==== Proof.QErr.lean ====
/-
  The per-element error of the loss, on the extended reals, in its two spellings, and the mean's two spellings.

  For a prediction `x` and a target `t` the error is `(1 - x) · 100000` when `x` is below the threshold
  `ε = f32(1e-5)`, and otherwise the distance between the logarithms: one program writes it `|log x - log t|`, the other
  `log x - log t` when `t < x` and `log t - log x` otherwise. Past the threshold `x` is positive, the logarithm is
  monotone, and the two agree — also at the corners of the extended reals (a target that is zero or negative has
  logarithm `-∞`, the difference is `+∞`, `t < x` holds, and both sides are `+∞`; an infinite target or prediction
  likewise), so no finiteness is needed.

  The mean divides the total by `2^25` in one program and multiplies it by the word `2^-25` in the other: the same
  extended real for every total.
-/
import Idealize.ShloMosaic.PureOps.Ideal
import Idealize.ShloMosaic.PureOps.Ideal.Laws

noncomputable section

namespace Cert.QErr

open Idealize.ShloMosaic

/-- The threshold `ε`, the constant one and the penalty factor, as the extended reals their words denote. -/
abbrev cMin : EReal := Ideal.ofBits .f32 0x3727C5AC#32
abbrev cOne : EReal := Ideal.ofBits .f32 0x3F800000#32
abbrev cPen : EReal := Ideal.ofBits .f32 0x47C35000#32

/-- The threshold is positive. -/
theorem cMin_pos : 0 < cMin := by
  simp [cMin, Ideal.ofBits, Ideal.ieee, -EReal.coe_mul]

/-- The divisor's word denotes `2^25`. -/
theorem ofBits_count : Ideal.ofBits .f32 0x4C000000#32 = ((33554432 : ℝ) : EReal) := by
  simp [Ideal.ofBits, Ideal.ieee, -EReal.coe_mul]; norm_num

/-- The factor's word denotes `2^-25`. -/
theorem ofBits_inv_count : Ideal.ofBits .f32 0x33000000#32 = ((1 / 33554432 : ℝ) : EReal) := by
  simp [Ideal.ofBits, Ideal.ieee, -EReal.coe_mul]; norm_num

/-- Dividing by `2^25` is multiplying by `2^-25`, for every extended real. -/
theorem div_count (a : EReal) :
    Ideal.div a (Ideal.ofBits .f32 0x4C000000#32) = a * Ideal.ofBits .f32 0x33000000#32 := by
  rw [ofBits_count, ofBits_inv_count]
  exact Ideal.div_coe (by norm_num) a

/-- A selection on a decided comparison is the conditional. -/
theorem select_ofBool (p : Prop) [Decidable p] (a b : EReal) :
    Scalar.select (BitVec.ofBool (decide p)) a b = if p then a else b := by
  by_cases h : p <;> simp [Scalar.select, h]

/-- The error in the spelling with an absolute value. -/
def qAbs (x t : EReal) : EReal :=
  Scalar.select (Ideal.cmp .olt x cMin) ((cOne - x) * cPen)
    (max (Ideal.log x - Ideal.log t) (-(Ideal.log x - Ideal.log t)))

/-- The error in the spelling with a comparison of the prediction and the target. -/
def qCmp (x t : EReal) : EReal :=
  Scalar.select (Ideal.cmp .olt x cMin) ((cOne - x) * cPen)
    (Scalar.select (Ideal.cmp .ogt x t) (Ideal.log x - Ideal.log t) (-(Ideal.log x - Ideal.log t)))

/-- For a positive prediction the absolute value of the difference of the logarithms is the difference taken in
    the order the comparison `t < x` says. -/
theorem abs_log_sub (x t : EReal) (hx : 0 < x) :
    max (Ideal.log x - Ideal.log t) (-(Ideal.log x - Ideal.log t))
      = if t < x then Ideal.log x - Ideal.log t else -(Ideal.log x - Ideal.log t) := by
  induction x using EReal.rec with
  | bot => exact absurd hx (by simp)
  | top =>
    induction t using EReal.rec with
    | bot => simp
    | top => simp
    | coe s =>
      by_cases hs : s ≤ 0
      · simp [hs]
      · simp [hs]
  | coe r =>
    have hr : 0 < r := EReal.coe_pos.mp hx
    have hr' : ¬ r ≤ 0 := not_le.mpr hr
    induction t using EReal.rec with
    | bot => simp [hr']
    | top => simp [hr']
    | coe s =>
      by_cases hs : s ≤ 0
      · have hsr : s < r := lt_of_le_of_lt hs hr
        simp [hr', hs, hsr]
      · have hs' : 0 < s := not_le.mp hs
        simp only [Ideal.log_coe, if_neg hr', if_neg hs, EReal.coe_lt_coe_iff]
        rw [← EReal.coe_sub, ← EReal.coe_neg, ← EReal.coe_strictMono.monotone.map_max]
        by_cases hsr : s < r
        · rw [if_pos hsr]
          have : Real.log s < Real.log r := Real.log_lt_log hs' hsr
          exact congrArg _ (max_eq_left (by linarith))
        · rw [if_neg hsr]
          have : Real.log r ≤ Real.log s := Real.log_le_log hr (not_lt.mp hsr)
          exact congrArg _ (max_eq_right (by linarith))

/-- The two spellings of the error are one function of the prediction and the target. -/
theorem qCmp_eq_qAbs (x t : EReal) : qCmp x t = qAbs x t := by
  unfold qCmp qAbs Ideal.cmp
  simp only [select_ofBool]
  by_cases h : x < cMin
  · rw [if_pos h, if_pos h]
  · rw [if_neg h, if_neg h]
    exact (abs_log_sub x t (lt_of_lt_of_le cMin_pos (not_lt.mp h))).symm

end Cert.QErr

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibPlaneSums.lean ====
/-
  Sums over a plane, and a comparison's bit as a float, at any extents, over the extended reals:
  the lane sum of a matrix `[a, b]` along its FIRST axis read at a column as the sum of that column's entries; the host's
  sum of an `[A, C, D]` array over its last two axes read at `a` as the initial value plus the double sum over the plane
  `a`; and the two ways a one-bit comparison result becomes the float 0 or 1 — widened to 32 bits and read as a signed
  integer, or read as an unsigned integer — are one value.
-/
import Idealize.ShloMosaic.Lib.ValueIdx
import Idealize.ShloMosaic.PureOps.Ideal.Laws

open scoped BigOperators

noncomputable section

namespace Cert.Lib.PlaneSums

open Idealize.ShloMosaic Idealize.ShloMosaic.ValueIdx

/-- A one-bit word widened to 32 bits and read as a signed integer is the bit read as a natural number: the two ways a
    comparison's result becomes the float 0 or 1. -/
theorem bit_sitofp_eq_uitofp (w : BitVec 1) :
    FloatOps.sitofp (F := Ideal) .f32 (w.setWidth 32) = FloatOps.uitofp (F := Ideal) .f32 w := by
  show (((w.setWidth 32).toInt : ℝ) : EReal) = ((w.toNat : ℝ) : EReal)
  have h : ∀ w : BitVec 1, (w.setWidth 32).toInt = (w.toNat : ℤ) := by decide
  rw [h w, Int.cast_natCast]

/-- The lane sum of an `[a, b]` array along its FIRST axis is, at column `c`, the sum of that column's `a` entries. -/
theorem multiReduction_add_ab_b_apply {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (c : Fin b) :
    multiReduction .add [(0 : Fin 2)] ⟨1, ![b]⟩ src acc h hφ hacc (ix1 c) = ∑ k : Fin a, src (ix2 k c) := by
  rw [Ideal.multiReduction_add_single]
  exact Finset.sum_congr rfl fun k _ => congrArg src (funext fun d => Fin.ext (by
    match d with | ⟨0, _⟩ => rfl | ⟨1, _⟩ => rfl))

/-- The host's sum of an `[A, C, D]` array over its last two axes is, at `a`, the initial value plus the double sum over
    the plane `a`. -/
theorem hostReduceAdd_plane_apply {A C D : ℕ} (x : (⟨3, ![A, C, D]⟩ : Shape).Idx → EReal) (init : EReal)
    (h' : (⟨3, ![A, C, D]⟩ : Shape).ReducesTo [(1 : Fin 3), 2] ⟨1, ![A]⟩) (a : Fin A) :
    Ideal.hostReduceAdd h' x init (ix1 a) = init + ∑ p : Fin C, ∑ q : Fin D, x (ix3 a p q) := by
  unfold Ideal.hostReduceAdd
  refine congrArg (init + ·) ?_
  have hdrop : ∀ i : (⟨3, ![A, C, D]⟩ : Shape).Idx, h'.drop i = ix1 a ↔ (i 0).val = a.val := by
    intro i
    constructor
    · intro e
      have e0 : (h'.drop i 0).val = a.val := congrArg (fun j : (⟨1, ![A]⟩ : Shape).Idx => (j 0).val) e
      exact e0
    · intro e0
      funext ax
      apply Fin.ext
      match ax with
      | ⟨0, _⟩ => exact e0
  rw [← Finset.sum_product']
  refine Finset.sum_nbij' (fun i => ((⟨(i 1).val, (i 1).isLt⟩ : Fin C), (⟨(i 2).val, (i 2).isLt⟩ : Fin D)))
    (fun pq => ix3 a pq.1 pq.2) (fun _ _ => Finset.mem_product.mpr ⟨Finset.mem_univ _, Finset.mem_univ _⟩) ?_ ?_ ?_ ?_
  · intro pq _
    exact Finset.mem_filter.mpr ⟨Finset.mem_univ _, (hdrop _).mpr rfl⟩
  · intro i hi
    have e0 := (hdrop i).mp (Finset.mem_filter.mp hi).2
    funext ax
    apply Fin.ext
    match ax with
    | ⟨0, _⟩ => show a.val = (i 0).val; exact e0.symm
    | ⟨1, _⟩ => rfl
    | ⟨2, _⟩ => rfl
  · intro pq _
    rfl
  · intro i hi
    have e0 := (hdrop i).mp (Finset.mem_filter.mp hi).2
    refine congrArg x ?_
    funext ax
    apply Fin.ext
    match ax with
    | ⟨0, _⟩ => show (i 0).val = a.val; exact e0
    | ⟨1, _⟩ => rfl
    | ⟨2, _⟩ => rfl

end Cert.Lib.PlaneSums

end
-- ==== Proof.Payload.lean ====
/-
  The body's two stored values read at an index, over the extended reals.

  The column update adds to entry `r` of the running column the sum over the 1024 lanes `k` of the error of the pair
  `(x (r, k), t (r, k))` of the point's two input blocks; the zero column is zero; the output block's one entry is the
  sum of the column's 1024 entries.
-/
import proofs.«126340_j12910671691833_2_alg».proof.Proof.Gen.KernelIdeal.Skeleton
import proofs.«126340_j12910671691833_2_alg».proof.Proof.QErr
import proofs.«126340_j12910671691833_2_alg».proof.Proof.LibColumns
import proofs.«126340_j12910671691833_2_alg».proof.Proof.LibPlaneSums
import Idealize.ShloMosaic.Lib.Pipeline.Value
import Idealize.ShloMosaic.Lib.ValueIdx
import Idealize.ShloMosaic.PureOps.Ideal.Laws

open scoped BigOperators

noncomputable section

open Idealize.ShloMosaic Idealize.ShloMosaic.ValueIdx

namespace Cert.KernelIdeal.Payload

open Cert.KernelIdeal Cert.KernelIdeal.Gen

/-- The zero column is zero at every row. -/
theorem zero_column_apply (j : S1024x1.Idx) : k0_pay1 (F := Ideal) j = 0 := by
  unfold k0_pay1
  simp only [shapeCast_self]
  exact Ideal.ofBits_zero_f32

/-- The error of one pair of block entries, as the body computes it. -/
theorem error_apply (x0 x1 : FVec Ideal S1024x1024 .f32) (r k : Fin 1024) :
    (select (cmpf .olt x0 (broadcast S1024x1024 (Scalar.ofBits .f32 0x3727C5AC#32)))
        (mulf (subf (broadcast S1024x1024 (Scalar.ofBits .f32 0x3F800000#32)) x0)
          (broadcast S1024x1024 (Scalar.ofBits .f32 0x47C35000#32)))
        (absf (subf (log x0) (log x1))) : FVec Ideal S1024x1024 .f32) (ix2 r k)
      = QErr.qAbs (x0 (ix2 r k)) (x1 (ix2 r k)) := rfl

/-- The column update at row `r`: the old entry plus the row's sum of errors. -/
theorem column_update_apply (x0 x1 : Vec Ideal S1024x1024 .f32) (xs : Vec Ideal S1024x1 .f32) (r : Fin 1024) (u : Fin 1) :
    k0_pay2 x0 x1 xs (ix2 r u) = xs (ix2 r u) + ∑ k : Fin 1024, QErr.qAbs (x0 (ix2 r k)) (x1 (ix2 r k)) := by
  unfold k0_pay2
  simp only [shapeCast_self]
  refine congrArg (xs (ix2 r u) + ·) ?_
  refine (Cert.Lib.Columns.shapeCast_a_a1_apply _ _ r u).trans ?_
  refine (Cert.Lib.Columns.multiReduction_add_ab_a_apply _ _ _ _ _ r).trans ?_
  exact Finset.sum_congr rfl fun k _ => error_apply x0 x1 r k

/-- The output block's entry: the sum of the column. -/
theorem column_sum_apply (xs : Vec Ideal S1024x1 .f32) (j : S1x1x1.Idx) :
    k0_pay3 xs j = ∑ r : Fin 1024, xs (ix2 r (0 : Fin 1)) := by
  obtain ⟨a, b, d, rfl⟩ : ∃ (a b d : Fin 1), j = ix3 a b d := ⟨j 0, j 1, j 2, eq_ix3 j⟩
  obtain rfl : b = 0 := Subsingleton.elim _ _
  unfold k0_pay3
  refine (Cert.Lib.Columns.shapeCast_ab_ab1_apply _ _ a 0 d).trans ?_
  refine (Cert.Lib.Columns.shapeCast_a_a1_apply _ _ a 0).trans ?_
  obtain rfl : a = 0 := Subsingleton.elim _ _
  exact Cert.Lib.PlaneSums.multiReduction_add_ab_b_apply _ _ _ _ _ (0 : Fin 1)

end Cert.KernelIdeal.Payload

end
-- ==== Proof.Blocks.lean ====
/-
  The two input blocks of a grid point, read as entries of the two argument vectors.

  The host views each argument vector of `2^25` entries as a matrix of 32768 rows of 1024 lanes, and the window of grid
  point `p` (core `p / 16`, step `p % 16`) takes rows `1024 p … 1024 p + 1023` of it. So entry `(r, k)` of the block at
  point `p` is the vector's entry at position `(1024 p + r) · 1024 + k`.
-/
import proofs.«126340_j12910671691833_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The matrix the region finds in the first window's array is the first argument, reshaped. -/
theorem matrix0 (c : Dev nD) : (V m c main_v0 : S32768x1024.Idx → Elt F .f32)
    = shapeCast S32768x1024 (m ((c : Thread nD τ).loc main_arg0)) shapeCasts_S33554432_S32768x1024 := by
  show StableHlo.after hostOps0 (fun b => m (c, b)) (Proc.devRef .tc main_v0) = _
  after_results
  rfl

/-- The matrix the region finds in the second window's array is the second argument, reshaped. -/
theorem matrix1 (c : Dev nD) : (V m c main_v1 : S32768x1024.Idx → Elt F .f32)
    = shapeCast S32768x1024 (m ((c : Thread nD τ).loc main_arg1)) shapeCasts_S33554432_S32768x1024 := by
  show StableHlo.after hostOps0 (fun b => m (c, b)) (Proc.devRef .tc main_v1) = _
  after_results
  rfl

/-- Both input windows take, at point `p`, the row block number `p` and the one lane block. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Entry `(r, k)` of the first input block at point `t` is the first argument at position `(1024 t + r) · 1024 + k`. -/
theorem block0_apply (c : Dev nD) (t : Fin cfg0.N) (r k : Fin 1024) (q : Fin 33554432)
    (hq : q.val = (t.val * 1024 + r.val) * 1024 + k.val) :
    (iblk m c 0 t : Vec F S1024x1024 .f32) (ix2 r k)
      = (m ((c : Thread nD τ).loc main_arg0) : S33554432.Idx → Elt F .f32) (ix1 q) := by
  have hi := index0 t
  unfold iblk
  rw [View.read_apply]
  show V m c main_v0 _ = _
  rw [matrix0]
  refine shapeCast_apply _ _ _ _ ?_
  show ((⟨1, ![33554432]⟩ : Shape).rowMajor (ix1 q)).val = ((⟨2, ![32768, 1024]⟩ : Shape).rowMajor _).val
  rw [Shape.rowMajor_val_one, Shape.rowMajor_val_two]
  show q.val = (win0_0.index t 0 * 1024 + 1 * r.val) * 1024 + (win0_0.index t 1 * 1024 + 1 * k.val)
  rw [hi.1, hi.2, hq]
  omega

/-- Entry `(r, k)` of the second input block at point `t` is the second argument at the same position. -/
theorem block1_apply (c : Dev nD) (t : Fin cfg0.N) (r k : Fin 1024) (q : Fin 33554432)
    (hq : q.val = (t.val * 1024 + r.val) * 1024 + k.val) :
    (iblk m c 1 t : Vec F S1024x1024 .f32) (ix2 r k)
      = (m ((c : Thread nD τ).loc main_arg1) : S33554432.Idx → Elt F .f32) (ix1 q) := by
  have hi := index1 t
  unfold iblk
  rw [View.read_apply]
  show V m c main_v1 _ = _
  rw [matrix1]
  refine shapeCast_apply _ _ _ _ ?_
  show ((⟨1, ![33554432]⟩ : Shape).rowMajor (ix1 q)).val = ((⟨2, ![32768, 1024]⟩ : Shape).rowMajor _).val
  rw [Shape.rowMajor_val_one, Shape.rowMajor_val_two]
  show q.val = (win0_1.index t 0 * 1024 + 1 * r.val) * 1024 + (win0_1.index t 1 * 1024 + 1 * k.val)
  rw [hi.1, hi.2, hq]
  omega

end Cert.KernelIdeal.Blocks

end
-- ==== Proof.LibBlockSums.lean ====
/-
  Three re-indexing lemmas for finite sums in an additive commutative monoid.

  * A sum over the indices of a three-axis shape is the triple sum over the three coordinates.
  * A sum over `A * B` rows is the sum over `A` blocks of the sums over the `B` rows of each block
    (row `t * B + r` is row `r` of block `t`).
  * `G` groups of `K` terms each, group `g`'s terms placed in the first `K` slots of an `R × L` array of slots
    (slot `(r, l)` has number `r * L + l`, and a term is selected for a slot by comparing its number with the slot's):
    summing every slot of every group gives the sum of all `G * K` terms.

  Nothing here depends on what the terms are; the lemmas hold in every additive commutative monoid.
-/
import Mathlib
import Idealize.ShloMosaic.Lib.ValueIdx

open scoped BigOperators

namespace BlockSums

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- a sum over the indices of a three-axis shape is the triple sum over its coordinates -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `t`, numbered `t * B + r`, is one of the `A * B` rows. -/
theorem block_row_lt {A B : Nat} (t : Fin A) (r : Fin B) : t.val * B + r.val < A * B :=
  calc t.val * B + r.val < t.val * B + B := Nat.add_lt_add_left r.isLt _
    _ = (t.val + 1) * B := (Nat.succ_mul _ _).symm
    _ ≤ A * B := Nat.mul_le_mul_right _ t.isLt

/-- a sum over N = A·B rows is the sum over A blocks of the sum over the B rows of a block -/
theorem sum_blocks (A B N : Nat) (hN : N = A * B) (g : Fin N → M) :
    ∑ n : Fin N, g n = ∑ t : Fin A, ∑ r : Fin B, g ⟨t.val * B + r.val, by subst hN; exact block_row_lt t r⟩ := by
  subst hN
  rw [← finProdFinEquiv.sum_comp, Fintype.sum_prod_type]
  refine Finset.sum_congr rfl fun t _ => Finset.sum_congr rfl fun r _ => ?_
  congr 1
  apply Fin.ext
  show r.val + B * t.val = t.val * B + r.val
  rw [Nat.mul_comm, Nat.add_comm]

/-- One group: the first `K` terms of a sequence, term `i` selected for the slot numbered `i` of an `R × L` array of
    slots (slot `(r, l)` has number `r * L + l`); when the array has at least `K` slots, summing every slot gives the
    sum of the `K` terms, since each `i < K` is the number of exactly one slot. -/
theorem sum_onehot_slots (R L K : Nat) (hK : K ≤ R * L) (c : Nat → M) :
    ∑ r : Fin R, ∑ l : Fin L, ∑ i ∈ Finset.range K, (if r.val * L + l.val = i then c i else 0)
      = ∑ i ∈ Finset.range K, c i :=
  calc ∑ r : Fin R, ∑ l : Fin L, ∑ i ∈ Finset.range K, (if r.val * L + l.val = i then c i else 0)
      = ∑ r : Fin R, ∑ l : Fin L,
          (fun n : Fin (R * L) => if n.val < K then c n.val else 0) ⟨r.val * L + l.val, block_row_lt r l⟩ := by
        refine Finset.sum_congr rfl fun r _ => Finset.sum_congr rfl fun l _ => ?_
        rw [Finset.sum_ite_eq]
        simp only [Finset.mem_range]
    _ = ∑ n : Fin (R * L), (if n.val < K then c n.val else 0) :=
        (sum_blocks R L (R * L) rfl (fun n : Fin (R * L) => if n.val < K then c n.val else 0)).symm
    _ = ∑ n ∈ Finset.range (R * L), (if n < K then c n else 0) :=
        Fin.sum_univ_eq_sum_range (fun n => if n < K then c n else 0) (R * L)
    _ = ∑ n ∈ Finset.range K, (if n < K then c n else 0) := by
        refine (Finset.sum_subset (Finset.range_subset_range.mpr hK) fun n _ hn => ?_).symm
        exact if_neg fun h => hn (Finset.mem_range.mpr h)
    _ = ∑ n ∈ Finset.range K, c n :=
        Finset.sum_congr rfl fun n hn => if_pos (Finset.mem_range.mp hn)

/-- G groups of K tile sums, group g's sums parked in the first K slots of an R×L slot array (slot (r,l) has number
    r·L + l, one-hot by the slot number): summing every slot of every group gives the sum of all the tile sums -/
theorem sum_slots (G R L K N : Nat) (hK : K ≤ R * L) (hN : N = G * K) (F : Fin N → M) :
    ∑ g : Fin G, ∑ r : Fin R, ∑ l : Fin L, ∑ i ∈ Finset.range K,
        (if r.val * L + l.val = i then (if h : K * g.val + i < N then F ⟨K * g.val + i, h⟩ else 0) else 0)
      = ∑ t : Fin N, F t := by
  rw [sum_blocks G K N hN F]
  refine Finset.sum_congr rfl fun g _ => ?_
  refine (sum_onehot_slots R L K hK
    (fun i => if h : K * g.val + i < N then F ⟨K * g.val + i, h⟩ else 0)).trans ?_
  rw [← Fin.sum_univ_eq_sum_range (fun i => if h : K * g.val + i < N then F ⟨K * g.val + i, h⟩ else 0) K]
  refine Finset.sum_congr rfl fun i _ => ?_
  have h : K * g.val + i.val < N := by
    rw [hN, Nat.mul_comm K g.val]
    exact block_row_lt g i
  rw [dif_pos h]
  congr 1
  apply Fin.ext
  show K * g.val + i.val = g.val * K + i.val
  rw [Nat.mul_comm]

end BlockSums
-- ==== Proof.Sums.lean ====
/-
  Re-indexing the total.

  The loss sums one term per entry of a vector of `2^25 = 32 · 1024 · 1024` entries. Entry number
  `(1024 p + r) · 1024 + k` is lane `k` of row `r` of the block of grid point `p`, and point `p = 16 c + i` is step `i` of
  core `c`. So the total over all entries is the sum over points, rows and lanes, and a per-core column of running row
  sums, summed over its rows and then over the two cores, is that total again: sums in a commutative monoid may be
  regrouped and reordered freely.
-/
import Mathlib
import Idealize.ShloMosaic.Lib.ValueIdx
import proofs.«126340_j12910671691833_2_alg».proof.Proof.LibBlockSums

open scoped BigOperators

namespace Cert.QSums

open Idealize.ShloMosaic Idealize.ShloMosaic.ValueIdx

variable {M : Type*} [AddCommMonoid M]

/-- A vector of `2^25` entries read at a position given as a natural number (zero past the end). -/
def flat (x : (⟨1, ![33554432]⟩ : Shape).Idx → M) (p : ℕ) : M :=
  if h : p < 33554432 then x (ix1 ⟨p, h⟩) else 0

theorem flat_of_lt (x : (⟨1, ![33554432]⟩ : Shape).Idx → M) (p : ℕ) (h : p < 33554432) : flat x p = x (ix1 ⟨p, h⟩) :=
  dif_pos h

/-- The indices of a one-axis shape are its coordinate's range. -/
def idxEquiv1 {n : ℕ} : (⟨1, ![n]⟩ : Shape).Idx ≃ Fin n where
  toFun j := j 0
  invFun a := ix1 a
  left_inv j := (eq_ix1 j).symm
  right_inv _ := rfl

/-- A sum over the vector's indices is the sum over its positions. -/
theorem sum_idx1 {n : ℕ} (f : (⟨1, ![n]⟩ : Shape).Idx → M) : ∑ j, f j = ∑ q : Fin n, f (ix1 q) :=
  (Equiv.sum_comp (idxEquiv1 (n := n)).symm f).symm

/-- The total over all `2^25` positions is the sum over the 32 points, the 1024 rows of a point's block and the 1024
    lanes of a row. -/
theorem sum_positions (f : ℕ → M) :
    ∑ q : Fin 33554432, f q.val
      = ∑ p : Fin 32, ∑ r : Fin 1024, ∑ k : Fin 1024, f ((p.val * 1024 + r.val) * 1024 + k.val) := by
  rw [BlockSums.sum_blocks 32768 1024 33554432 (by norm_num) (fun q => f q.val)]
  exact BlockSums.sum_blocks 32 1024 32768 (by norm_num) (fun R => ∑ k : Fin 1024, f (R.val * 1024 + k.val))

/-- Per core, the rows of the column each hold the sum over the core's sixteen steps; summing the column and then the two
    cores gives the sum over all 32 points and their rows. -/
theorem sum_cores (S : ℕ → Fin 1024 → M) :
    ∑ c : Fin 2, ∑ r : Fin 1024, ∑ j ∈ Finset.range 16, S (c.val * 16 + j) r
      = ∑ p : Fin 32, ∑ r : Fin 1024, S p.val r := by
  rw [BlockSums.sum_blocks 2 16 32 (by norm_num) (fun p => ∑ r : Fin 1024, S p.val r)]
  refine Finset.sum_congr rfl fun c _ => ?_
  rw [Finset.sum_comm, Finset.sum_range]

end Cert.QSums
-- ==== Proof.Mean.lean ====
/-
  The mean error as one number, and the two programs' arrangements of its total.

  `mean x t` is the total of the errors of the `2^25` pairs `(x q, t q)`, started from the zero word and multiplied by
  `2^-25`. One program reaches the total as the sum over two cores of a column of 1024 running row sums, each the sum
  over the core's sixteen steps of a row of 1024 errors; the other sums the vector of errors directly and divides by
  `2^25`. Both are `mean x t`: the sums regroup freely in the extended reals, and the division by `2^25` is the
  multiplication by `2^-25` at every extended real.
-/
import proofs.«126340_j12910671691833_2_alg».proof.Proof.QErr
import proofs.«126340_j12910671691833_2_alg».proof.Proof.Sums

open scoped BigOperators

noncomputable section

namespace Cert.Mean

open Idealize.ShloMosaic Idealize.ShloMosaic.ValueIdx Cert.QErr Cert.QSums

/-- The error of the pair at position `q` of the two vectors (zero past the end). -/
def err (x t : (⟨1, ![33554432]⟩ : Shape).Idx → EReal) (q : ℕ) : EReal := qAbs (flat x q) (flat t q)

/-- The sum of the errors of row `r` of the block of point `p`. -/
def rowSum (x t : (⟨1, ![33554432]⟩ : Shape).Idx → EReal) (p : ℕ) (r : Fin 1024) : EReal :=
  ∑ k : Fin 1024, err x t ((p * 1024 + r.val) * 1024 + k.val)

/-- What core `c` contributes: its column of running row sums, summed. -/
def coreSum (x t : (⟨1, ![33554432]⟩ : Shape).Idx → EReal) (c : ℕ) : EReal :=
  ∑ r : Fin 1024, ∑ j ∈ Finset.range 16, rowSum x t (c * 16 + j) r

/-- The total of all the errors. -/
def total (x t : (⟨1, ![33554432]⟩ : Shape).Idx → EReal) : EReal :=
  ∑ q : Fin 33554432, qAbs (x (ix1 q)) (t (ix1 q))

/-- The mean error. -/
def mean (x t : (⟨1, ![33554432]⟩ : Shape).Idx → EReal) : EReal :=
  (Ideal.ofBits .f32 0x00000000#32 + total x t) * Ideal.ofBits .f32 0x33000000#32

/-- The two cores' contributions add up to the total. -/
theorem sum_coreSum (x t : (⟨1, ![33554432]⟩ : Shape).Idx → EReal) :
    ∑ c : Fin 2, coreSum x t c.val = total x t := by
  unfold coreSum
  rw [sum_cores (rowSum x t)]
  unfold rowSum total
  rw [← sum_positions (err x t)]
  exact Finset.sum_congr rfl fun q _ => by
    unfold err
    rw [flat_of_lt x q.val q.isLt, flat_of_lt t q.val q.isLt]

/-- The direct sum of the vector of errors, written with the comparison, divided by `2^25`, is the mean. -/
theorem direct_eq_mean (x t : (⟨1, ![33554432]⟩ : Shape).Idx → EReal) :
    Ideal.div (Ideal.ofBits .f32 0x00000000#32 + ∑ j : (⟨1, ![33554432]⟩ : Shape).Idx, qCmp (x j) (t j))
        (Ideal.ofBits .f32 0x4C000000#32)
      = mean x t := by
  rw [div_count, sum_idx1]
  unfold mean total
  refine congrArg (fun s => (Ideal.ofBits .f32 0x00000000#32 + s) * Ideal.ofBits .f32 0x33000000#32) ?_
  exact Finset.sum_congr rfl fun q _ => qCmp_eq_qAbs _ _

end Cert.Mean

end
-- ==== Proof.Column.lean ====
/-
  The column of running row sums, point by point, and the number a core writes back.

  After grid point `n` (step `n % 16` of core `n / 16`) row `r` of the column holds the sum, over the steps of that core
  up to this one, of the row sums of row `r` of each step's block: the first step starts from the zero column, every
  later step adds its row sums to what the step before left. At a core's last step the output block receives the sum
  of the column, which is the core's whole contribution.
-/
import proofs.«126340_j12910671691833_2_alg».proof.Proof.Gen.KernelIdeal.Frame
import proofs.«126340_j12910671691833_2_alg».proof.Proof.Pieces
import proofs.«126340_j12910671691833_2_alg».proof.Proof.Payload
import proofs.«126340_j12910671691833_2_alg».proof.Proof.Blocks
import proofs.«126340_j12910671691833_2_alg».proof.Proof.Mean

open scoped BigOperators

noncomputable section

open Idealize.ShloMosaic Idealize.ShloMosaic.TcCoe Idealize.SL.Sem Idealize.ShloMosaic.ValueIdx

namespace Cert.KernelIdeal.Column

open Cert.KernelIdeal Cert.KernelIdeal.Gen Cert.Mean

variable (m : (ℓ : Loc nD τ sig) → Buf (Elt Ideal) ℓ)

/-- The two argument vectors on core `c`. -/
abbrev X (c : Dev nD) : S33554432.Idx → EReal := m ((c : Thread nD τ).loc main_arg0)
abbrev T (c : Dev nD) : S33554432.Idx → EReal := m ((c : Thread nD τ).loc main_arg1)

/-- The row sums the body forms from the two input blocks of point `t` are the row sums of the argument vectors'
    entries at that block's positions. -/
theorem block_rowSum (c : Dev nD) (t : Fin cfg0.N) (r : Fin 1024) :
    ∑ k : Fin 1024, QErr.qAbs ((iblk m c 0 t : Vec Ideal S1024x1024 .f32) (ix2 r k)) ((iblk m c 1 t : Vec Ideal S1024x1024 .f32) (ix2 r k))
      = rowSum (X m c) (T m c) t.val r := by
  have hN : t.val < 32 := lt_of_lt_of_eq t.isLt (show cfg0.N = 32 from N_0)
  unfold rowSum err
  refine Finset.sum_congr rfl fun k _ => ?_
  have hq : (t.val * 1024 + r.val) * 1024 + k.val < 33554432 := by have := r.isLt; have := k.isLt; omega
  rw [Blocks.block0_apply m c t r k ⟨(t.val * 1024 + r.val) * 1024 + k.val, hq⟩ rfl,
    Blocks.block1_apply m c t r k ⟨(t.val * 1024 + r.val) * 1024 + k.val, hq⟩ rfl,
    QSums.flat_of_lt (X m c) _ hq, QSums.flat_of_lt (T m c) _ hq]

/-- At a core's first step the column is the row-sum update of the zero column. -/
theorem column_first (c : Dev nD) (t : Fin cfg0.N) (h0 : t.val % 16 = 0) :
    (outsAt0 m c t.val t.isLt).2 = k0_pay2 (iblk m c 0 t) (iblk m c 1 t) (k0_pay1 (F := Ideal)) := by
  have h1 : ¬t.val % 16 = 15 := by omega
  rw [outsAt0_A m c t h0 h1]
  dsimp only
  exact Pieces.column_A (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- At a later step it is the row-sum update of the column the step before left. -/
theorem column_later (c : Dev nD) (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · rw [outsAt0_C m c t h0 h1]
    dsimp only
    exact Pieces.column_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact Pieces.column_B (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At a core's last step the output block is the column sum of the column that step leaves. -/
theorem block_last (c : Dev nD) (t : Fin cfg0.N) (h1 : t.val % 16 = 15) :
    (outsAt0 m c t.val t.isLt).1 = k0_pay3 (outsAt0 m c t.val t.isLt).2 := by
  have h0 : ¬t.val % 16 = 0 := by omega
  rw [outsAt0_C m c t h0 h1]
  dsimp only
  rw [Pieces.column_C (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2]
  exact Pieces.block_C (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- THE COLUMN after point `n`: row `r` holds the row sums of the core's steps so far. -/
theorem column_eq (c : Dev nD) : ∀ (n : ℕ) (hn : n < cfg0.N) (r : Fin 1024) (u : Fin 1),
    (outsAt0 m c n hn).2 (ix2 r u) = ∑ j ∈ Finset.range (n % 16 + 1), rowSum (X m c) (T m c) (n / 16 * 16 + j) r
  | 0, hn, r, u => by
    rw [column_first m c ⟨0, hn⟩ rfl]
    refine (Payload.column_update_apply (iblk m c 0 ⟨0, hn⟩) (iblk m c 1 ⟨0, hn⟩) _ r u).trans ?_
    rw [Payload.zero_column_apply, zero_add, block_rowSum m c ⟨0, hn⟩ r]
    simp
  | n + 1, hn, r, u => by
    by_cases h0 : (n + 1) % 16 = 0
    · rw [column_first m c ⟨n + 1, hn⟩ h0]
      refine (Payload.column_update_apply (iblk m c 0 ⟨n + 1, hn⟩) (iblk m c 1 ⟨n + 1, hn⟩) _ r u).trans ?_
      rw [Payload.zero_column_apply, zero_add, block_rowSum m c ⟨n + 1, hn⟩ r, h0]
      have e : (n + 1) / 16 * 16 = n + 1 := by omega
      simp [e]
    · rw [column_later m c ⟨n + 1, hn⟩ h0]
      refine (Payload.column_update_apply (iblk m c 0 ⟨n + 1, hn⟩) (iblk m c 1 ⟨n + 1, hn⟩) _ r u).trans ?_
      rw [block_rowSum m c ⟨n + 1, hn⟩ r]
      show (outsAt0 m c n _).2 (ix2 r u) + rowSum (X m c) (T m c) (n + 1) r = _
      rw [column_eq c n (Nat.lt_of_succ_lt hn) r u]
      have e1 : (n + 1) % 16 + 1 = (n % 16 + 1) + 1 := by omega
      have e2 : (n + 1) / 16 * 16 = n / 16 * 16 := by omega
      have e3 : n / 16 * 16 + (n % 16 + 1) = n + 1 := by omega
      rw [e1, Finset.sum_range_succ _ (n % 16 + 1), e2, e3]

/-- What a core's last step writes back: the core's contribution. -/
theorem block_last_apply (c : Dev nD) (t : Fin cfg0.N) (h1 : t.val % 16 = 15) (j : S1x1x1.Idx) :
    (outsAt0 m c t.val t.isLt).1 j = coreSum (X m c) (T m c) (t.val / 16) := by
  rw [block_last m c t h1]
  refine (Payload.column_sum_apply _ j).trans ?_
  unfold coreSum
  refine Finset.sum_congr rfl fun r _ => ?_
  rw [column_eq m c t.val t.isLt r 0, h1]

end Cert.KernelIdeal.Column

end
-- ==== Proof.Result.lean ====
/-
  The kernel program's result: the mean error.

  Each core's last step writes its contribution into its own entry of a two-entry array; the two blocks tile that array,
  so after the region it holds the two contributions. The host then adds them, starting from the zero word, and
  multiplies by `2^-25`: the mean, since the two contributions add up to the total of the errors.
-/
import proofs.«126340_j12910671691833_2_alg».proof.Proof.Gen.KernelIdeal.Frame
import proofs.«126340_j12910671691833_2_alg».proof.Proof.Column
import proofs.«126340_j12910671691833_2_alg».proof.Proof.LibBlockSums
import Idealize.ShloMosaic.Lib.Pipeline.Value
import Idealize.ShloMosaic.Lib.StableHlo.Run
import Idealize.ShloMosaic.PureOps.Ideal.Laws
import Idealize.ShloMosaic.Lib.Tactic

open scoped BigOperators

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Mean Cert.KernelIdeal.Column

variable (m : (ℓ : Loc nD τ sig) → Buf (Elt Ideal) ℓ) (ρ : Dev nD → PrngReg)

/-- The array of the two cores' contributions. -/
abbrev partials (c : Dev nD) : Buf (Elt Ideal) ((c : Thread nD τ).loc main_v2) :=
  fun i => coreSum (X m c) (T m c) ((i : S2x1x1.Idx) 0).val

/-- The output window's block at point `t` is entry `t / 16` of the array. -/
theorem index2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- What a core's last step writes back is that core's entry of the array of contributions. -/
theorem flushed_eq (c : Dev nD) (t : Fin cfg0.N) (hf : (cfg0.win 2).flush t = true) :
    (dats m 0 c).flushed 2 t = ((cfg0.win 2).blk t).view.read (Elt Ideal) (partials m c) := by
  have h1 : t.val % 16 = 15 := (flush0_2 t).mp hf
  obtain ⟨e0, -, -⟩ := index2 t
  show (cfg0.win 2).cut (grid0.coords t) ((dats m 0 c).after 2 t) = _
  rw [after0_2]
  funext y
  show (outsAt0 m c t.val t.isLt).1 y = partials m c (((cfg0.win 2).blk t).view.emb y)
  rw [block_last_apply m c t h1 y]
  refine congrArg (coreSum (X m c) (T m c)) ?_
  show t.val / 16 = win0_2.index t 0 * 1 + 1 * (y 0).val
  have hy : (y 0).val < 1 := (y 0).isLt
  rw [e0]; omega

/-- Every entry of the array is in the block some core's last step writes back. -/
theorem cover (c : Dev nD) (i : S2x1x1.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 32 := N_0
  obtain ⟨t, ht⟩ : ∃ t : Fin cfg0.N, t.val = (i 0).val * 16 + 15 := ⟨⟨(i 0).val * 16 + 15, by rw [hN]; omega⟩, rfl⟩
  obtain ⟨e0, e1, e2⟩ := index2 t
  refine ⟨t, (flush0_2 t).mpr (by rw [ht]; omega), ?_⟩
  show i ∈ ((View.whole main_v2).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0, ht]; omega
  | ⟨1, _⟩ => show win0_2.index t 1 * 1 ≤ (i 1).val ∧ (i 1).val < win0_2.index t 1 * 1 + 1; rw [e1]; omega
  | ⟨2, _⟩ => show win0_2.index t 2 * 1 ≤ (i 2).val ∧ (i 2).val < win0_2.index t 2 * 1 + 1; rw [e2]; omega

/-- After the region the array holds the two contributions. -/
theorem final (c : Dev nD) : (dats m 0 c).arrAt 2 cfg0.N = partials m c :=
  (dats m 0 c).arrAt_eq_of_cover 2 (partials m c) (flushed_eq m c) (cover c)

/-- The host's last lines turn the array of contributions into the mean. -/
theorem result_eq (c : Dev nD) :
    Pipeline.afterTail₀ cfgs (dats m) 0 (V0 m) [hostOps1] c main_v4 = fun _ => mean (X m c) (T m c) := by
  unfold Pipeline.afterTail₀
  show StableHlo.after hostOps1 _ (Proc.devRef .tc main_v4) = _
  after_results
  have hv2 : Pipeline.withArrays (cfgs 0).spec c (V0 m c) (fun w => (dats m 0 c).arrAt w (cfgs 0).N) (Proc.tc.devRef main_v2)
      = partials m c :=
    (Pipeline.withArrays_arr spec0 launch0.win.arr_inj c _ _ 2).trans (final m c)
  rw [hv2]
  funext i
  show Host.reduceAdd (F := Ideal) (partials m c) (constant S_ .f32 0#32) reducesTo_S2x1x1_S_d0_1_2 h_S_ i
      * Ideal.ofBits .f32 0x33000000#32 = mean (X m c) (T m c)
  simp only [Host.reduceAdd, Ideal.hostReduceAdd_def]
  rw [Ideal.hostReduceAdd_total reducesTo_S2x1x1_S_d0_1_2 (fun b => b.elim0)]
  unfold mean
  refine congrArg (fun s => (Ideal.ofBits .f32 0x00000000#32 + s) * Ideal.ofBits .f32 0x33000000#32) ?_
  rw [← sum_coreSum]
  refine (BlockSums.sum_idx3 (M := EReal) (n0 := 2) (n1 := 1) (n2 := 1)
    (fun i => coreSum (X m c) (T m c) (i 0).val)).trans ?_
  refine Finset.sum_congr rfl fun a _ => ?_
  rw [Fin.sum_univ_one, Fin.sum_univ_one]

/-- THE RUN of the kernel program, read: its result is the mean error of its two argument vectors, which end
    unchanged. -/
theorem run : θ_run defs (onTc (τ := τ) (main (F := Ideal))) ⟨m, fun _ => 0, ρ⟩ fun r => ∀ c : Dev nD,
      r.2.mem ((c : Thread nD τ).loc main_v4) = (fun _ => mean (X m c) (T m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference program's result: the mean error.

  The reference forms the vector of errors, each written with the comparison of the prediction and the target, sums it
  from the zero word and divides by `2^25`. Entry by entry its error is the function `qCmp` of the two arguments'
  entries, so its result is `mean`.
-/
import proofs.«126340_j12910671691833_2_alg».proof.Proof.Gen.ReferenceIdeal.Run
import proofs.«126340_j12910671691833_2_alg».proof.Proof.Gen.ReferenceIdeal.Read
import proofs.«126340_j12910671691833_2_alg».proof.Proof.Mean

open scoped BigOperators

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Mean

/-- The reference's vector of errors at an index. -/
theorem errors_apply (x0 x1 : FVec Ideal S33554432 .f32) (j : S33554432.Idx) :
    val_main_v12 (F := Ideal) x0 x1 j = QErr.qCmp (x0 j) (x1 j) := by
  rw [val_main_v12_apply, val_main_v4_apply, val_main_v8_apply, val_main_v11_apply, val_main_v3_apply,
    val_main_v6_apply, val_main_v7_apply, val_main_v5_apply, val_main_v9_apply, val_main_v10_apply, val_main_v2_apply,
    val_main_v0_apply, val_main_v1_apply, val_main_cst_apply, val_main_cst_0_apply, val_main_cst_1_apply]
  rfl

/-- The term the reference's run states for its result is the mean error of the arguments. -/
theorem reference_eq (x0 x1 : FVec Ideal S33554432 .f32) :
    Host.divf (Host.reduceAdd (select (cmpf .olt (x0) (broadcastInDim S33554432 ![] bcast_S_S33554432 (constant S_ .f32 0x3727C5AC#32))) (mulf (subf (broadcastInDim S33554432 ![] bcast_S_S33554432 (constant S_ .f32 0x3F800000#32)) (x0)) (broadcastInDim S33554432 ![] bcast_S_S33554432 (constant S_ .f32 0x47C35000#32))) (select (cmpf .ogt (x0) (x1)) (subf (Host.log (x0)) (Host.log (x1))) (Host.negf (subf (Host.log (x0)) (Host.log (x1)))))) (constant S_ .f32 0x00000000#32) reducesTo_S33554432_S_d0 h_S_) (constant S_ .f32 0x4C000000#32)
      = fun _ => mean x0 x1 := by
  rw [val_main_v14_eq]
  funext i
  rw [val_main_v14_apply, val_main_v13_apply, val_main_cst_2_apply, val_main_cst_3_apply]
  simp only [errors_apply]
  exact direct_eq_mean x0 x1

end Cert.ReferenceIdeal.RefValue

end
-- ==== Proof.lean ====
/-
  The mean branching q-error of two vectors of `2^25` entries: a two-core kernel that accumulates per-row sums in a
  column and reduces the column once per core, against the plain mean of the vector of errors.

  Over the extended reals both programs end at `Cert.Mean.mean` of their two argument vectors. The kernel's side is read
  off its generated frame run (the column of running row sums by induction on the grid point, the two cores' numbers
  written into a two-entry array, the host's sum and scaling after the region); the reference's side off its generated
  run, one operation at a time. The two spellings of the per-element error agree because past the threshold the
  prediction is positive and the logarithm is monotone; the two arrangements of the total agree because sums of
  extended reals regroup freely; dividing by `2^25` is multiplying by `2^-25`. The precondition is not needed for any of
  these. The frames of the two kernel programs are the generated ones, the reference's frame is its run with the result
  dropped, and the idealization rewrote nothing.
-/
import proofs.«126340_j12910671691833_2_alg».proof.Defs
import proofs.«126340_j12910671691833_2_alg».proof.Proof.Gen.Kernel
import proofs.«126340_j12910671691833_2_alg».proof.Proof.Gen.Kernel.Frame
import proofs.«126340_j12910671691833_2_alg».proof.Proof.Gen.KernelIdeal
import proofs.«126340_j12910671691833_2_alg».proof.Proof.Gen.KernelIdeal.Frame
import proofs.«126340_j12910671691833_2_alg».proof.Proof.Gen.ReferenceIdeal
import proofs.«126340_j12910671691833_2_alg».proof.Proof.Gen.Pre_finite_inputs
import proofs.«126340_j12910671691833_2_alg».proof.Proof.Gen.ReferenceIdeal.Run
import proofs.«126340_j12910671691833_2_alg».proof.Proof.Gen.ReferenceIdeal.Read
import proofs.«126340_j12910671691833_2_alg».proof.Proof.Result
import proofs.«126340_j12910671691833_2_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs, from memories that agree on the two arguments, end with the mean error of those
    arguments as their result. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => (fun _ => Cert.Mean.mean (Cert.KernelIdeal.Column.X m c) (Cert.KernelIdeal.Column.T m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.reference_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
